-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1152 : Shape := ⟨3, ![32, 2048, 1152]⟩
abbrev S32 : Shape := ⟨1, ![32]⟩
abbrev S29x1152 : Shape := ⟨2, ![29, 1152]⟩
abbrev S29 : Shape := ⟨1, ![29]⟩
abbrev S_ : Shape := ⟨0, ![]⟩

class Facts : Prop where
  bcast_S_S32x2048x1152 : S_.BroadcastsInDim S32x2048x1152 (![] : Fin 0 → Fin S32x2048x1152.rank)
  reducesTo_S32x2048x1152_S_d0_1_2 : S32x2048x1152.ReducesTo [0, 1, 2] S_
  h_S_ : 0 < S_.numel
  bcast_S_S29x1152 : S_.BroadcastsInDim S29x1152 (![] : Fin 0 → Fin S29x1152.rank)
  reducesTo_S29x1152_S_d0_1 : S29x1152.ReducesTo [0, 1] S_
  bcast_S_S29 : S_.BroadcastsInDim S29 (![] : Fin 0 → Fin S29.rank)
  reducesTo_S29_S_d0 : S29.ReducesTo [0] S_

variable [Facts]

def fn {F : FTy → Type} [FloatOps F] (main_arg0 : FVec F S32x2048x1152 .f32) (main_arg1 : IVec S32 32) (main_arg2 : FVec F S29x1152 .f32) (main_arg3 : FVec F S29 .f32) : IVec S_ 1 :=
  let main_v0 : FVec F S32x2048x1152 .f32 := Host.absf main_arg0
  let main_cst : FVec F S_ .f32 := constant S_ .f32 0x7F800000#32
  let main_v1 : FVec F S32x2048x1152 .f32 := broadcastInDim S32x2048x1152 ![] bcast_S_S32x2048x1152 main_cst
  let main_v2 : IVec S32x2048x1152 1 := cmpf .olt main_v0 main_v1
  let main_c : IVec S_ 1 := constantI S_ 1 1#1
  let main_v3 : IVec S_ 1 := (fun x v => Host.reduce IntOp.andi x v reducesTo_S32x2048x1152_S_d0_1_2 h_S_) main_v2 main_c
  let main_v4 : FVec F S29x1152 .f32 := Host.absf main_arg2
  let main_cst_0 : FVec F S_ .f32 := constant S_ .f32 0x7F800000#32
  let main_v5 : FVec F S29x1152 .f32 := broadcastInDim S29x1152 ![] bcast_S_S29x1152 main_cst_0
  let main_v6 : IVec S29x1152 1 := cmpf .olt main_v4 main_v5
  let main_c_1 : IVec S_ 1 := constantI S_ 1 1#1
  let main_v7 : IVec S_ 1 := (fun x v => Host.reduce IntOp.andi x v reducesTo_S29x1152_S_d0_1 h_S_) main_v6 main_c_1
  let main_v8 : IVec S_ 1 := andi main_v3 main_v7
  let main_v9 : FVec F S29 .f32 := Host.absf main_arg3
  let main_cst_2 : FVec F S_ .f32 := constant S_ .f32 0x7F800000#32
  let main_v10 : FVec F S29 .f32 := broadcastInDim S29 ![] bcast_S_S29 main_cst_2
  let main_v11 : IVec S29 1 := cmpf .olt main_v9 main_v10
  let main_c_3 : IVec S_ 1 := constantI S_ 1 1#1
  let main_v12 : IVec S_ 1 := (fun x v => Host.reduce IntOp.andi x v reducesTo_S29_S_d0 h_S_) main_v11 main_c_3
  let main_v13 : IVec S_ 1 := andi main_v8 main_v12
  main_v13
-- ==== Kernel.lean ====
abbrev S32x2048x1152 : Shape := ⟨3, ![32, 2048, 1152]⟩
abbrev S32 : Shape := ⟨1, ![32]⟩
abbrev S29x1152 : Shape := ⟨2, ![29, 1152]⟩
abbrev S29 : Shape := ⟨1, ![29]⟩
abbrev S1152x29 : Shape := ⟨2, ![1152, 29]⟩
abbrev S_ : Shape := ⟨0, ![]⟩
abbrev S1x29 : Shape := ⟨2, ![1, 29]⟩
abbrev S32x1 : Shape := ⟨2, ![32, 1]⟩
abbrev S32x29 : Shape := ⟨2, ![32, 29]⟩
abbrev S16x256x1152 : Shape := ⟨3, ![16, 256, 1152]⟩
abbrev S16x1 : Shape := ⟨2, ![16, 1]⟩
abbrev S16x29 : Shape := ⟨2, ![16, 29]⟩
abbrev S16x1152 : Shape := ⟨2, ![16, 1152]⟩

abbrev nBuf : Space → Nat
  | .hbm => 18
  | .vmem => 9
  | .smem => 0
  | _ => 0

abbrev bufTy : (tb : Table) → Fin (tcTables nBuf tb) → BufTy
  | .hbm, ⟨0, _⟩ => ⟨S32x2048x1152, .f32⟩
  | .hbm, ⟨1, _⟩ => ⟨S32, .i32⟩
  | .hbm, ⟨2, _⟩ => ⟨S29x1152, .f32⟩
  | .hbm, ⟨3, _⟩ => ⟨S29, .f32⟩
  | .hbm, ⟨4, _⟩ => ⟨S1152x29, .f32⟩
  | .hbm, ⟨5, _⟩ => ⟨S_, .f32⟩
  | .hbm, ⟨6, _⟩ => ⟨S29, .f32⟩
  | .hbm, ⟨7, _⟩ => ⟨S_, .f32⟩
  | .hbm, ⟨8, _⟩ => ⟨S29, .f32⟩
  | .hbm, ⟨9, _⟩ => ⟨S29, .f32⟩
  | .hbm, ⟨10, _⟩ => ⟨S_, .f32⟩
  | .hbm, ⟨11, _⟩ => ⟨S29, .f32⟩
  | .hbm, ⟨12, _⟩ => ⟨S29, .f32⟩
  | .hbm, ⟨13, _⟩ => ⟨S29, .f32⟩
  | .hbm, ⟨14, _⟩ => ⟨S1x29, .f32⟩
  | .hbm, ⟨15, _⟩ => ⟨S32, .f32⟩
  | .hbm, ⟨16, _⟩ => ⟨S32x1, .f32⟩
  | .hbm, ⟨17, _⟩ => ⟨S32x29, .f32⟩
  | .local _ .vmem, ⟨0, _⟩ => ⟨S16x256x1152, .f32⟩
  | .local _ .vmem, ⟨1, _⟩ => ⟨S16x256x1152, .f32⟩
  | .local _ .vmem, ⟨2, _⟩ => ⟨S1152x29, .f32⟩
  | .local _ .vmem, ⟨3, _⟩ => ⟨S1x29, .f32⟩
  | .local _ .vmem, ⟨4, _⟩ => ⟨S16x1, .f32⟩
  | .local _ .vmem, ⟨5, _⟩ => ⟨S16x1, .f32⟩
  | .local _ .vmem, ⟨6, _⟩ => ⟨S16x29, .f32⟩
  | .local _ .vmem, ⟨7, _⟩ => ⟨S16x29, .f32⟩
  | .local _ .vmem, ⟨8, _⟩ => ⟨S16x1152, .f32⟩
  | _, _ => ⟨S32x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1152x29 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x29 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x29 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S29x1152_S1152x29_1_0 : S29x1152.Transposes [1, 0] S1152x29
  reducesTo_S29x1152_S29_d1 : S29x1152.ReducesTo [1] S29
  h_S_ : 0 < S_.numel
  bcast_S_S29 : S_.BroadcastsInDim S29 (![] : Fin 0 → Fin S29.rank)
  shapeCasts_S29_S1x29 : S29.ShapeCasts S1x29
  shapeCasts_S32_S32x1 : S32.ShapeCasts S32x1
  inb_S16x1152_S16x1152_0_0 : ∀ a, (![0, 0] : Fin 2 → Nat) a + S16x1152.size a ≤ S16x1152.size a
  h_S16x1152 : 0 < S16x1152.numel
  shapeCasts_S16x1152_S16x1152 : S16x1152.ShapeCasts S16x1152
  inb_S16x256x1152_S16x256x1152_0_0_0 : ∀ a, (![0, 0, 0] : Fin 3 → Nat) a + S16x256x1152.size a ≤ S16x256x1152.size a
  h_S16x256x1152 : 0 < S16x256x1152.numel
  reduces_S16x256x1152_S16x1152 : S16x256x1152.Reduces [1] S16x1152
  bitsLt_bf16_f32 : FTy.bits .bf16 < FTy.bits .f32
  inb_S1152x29_S1152x29_0_0 : ∀ a, (![0, 0] : Fin 2 → Nat) a + S1152x29.size a ≤ S1152x29.size a
  h_S1152x29 : 0 < S1152x29.numel
  shapeCasts_S1152x29_S1152x29 : S1152x29.ShapeCasts S1152x29
  inb_S1x29_S1x29_0_0 : ∀ a, (![0, 0] : Fin 2 → Nat) a + S1x29.size a ≤ S1x29.size a
  h_S1x29 : 0 < S1x29.numel
  shapeCasts_S1x29_S1x29 : S1x29.ShapeCasts S1x29
  broadcasts_S1x29_S16x29 : S1x29.Broadcasts S16x29
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x29 : S16x1.Broadcasts S16x29
  inb_S16x29_S16x29_0_0 : ∀ a, (![0, 0] : Fin 2 → Nat) a + S16x29.size a ≤ S16x29.size a
  h_S16x29 : 0 < S16x29.numel
  dot_S16x1152_S1152x29_S16x29_1_0_0_1_n_n_wf : DotDims.WF S16x1152 S1152x29 S16x29 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1152.size a ≤ S32x2048x1152.size a
  hwx0_0 : ∀ i : grid0.Coords, EltTy.bits .f32 = 32 ∨ (Rect.block (s := S32x2048x1152) S16x256x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x29.size a ≤ S1152x29.size a
  hwx0_1 : ∀ i : grid0.Coords, EltTy.bits .f32 = 32 ∨ (Rect.block (s := S1152x29) S1152x29.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x29.size a ≤ S1x29.size a
  hwx0_2 : ∀ i : grid0.Coords, EltTy.bits .f32 = 32 ∨ (Rect.block (s := S1x29) S1x29.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S32x1.size a
  hwx0_3 : ∀ i : grid0.Coords, EltTy.bits .f32 = 32 ∨ (Rect.block (s := S32x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x29.size a ≤ S32x29.size a
  hwx0_4 : ∀ i : grid0.Coords, EltTy.bits .f32 = 32 ∨ (Rect.block (s := S32x29) S16x29.size (cc0_transform_4 i) (hinb0_4 i)).WholeWords (EltTy.packing .f32)

variable [Facts₀]

def dot_S16x1152_S1152x29_S16x29_1_0_0_1_n_n : DotDims S16x1152 S1152x29 S16x29 where
  lhsContracting := [1]
  rhsContracting := [0]
  lhsNonContracting := [0]
  rhsNonContracting := [1]
  lhsBatch := []
  rhsBatch := []
  wf := dot_S16x1152_S1152x29_S16x29_1_0_0_1_n_n_wf

abbrev win0_0 : Pipeline.Window sig grid0 :=
  Pipeline.Window.ofSpec (Memref.whole main_arg0) S16x256x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1152x29.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x29.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S16x29.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048x1152 : Shape := ⟨3, ![32, 2048, 1152]⟩
abbrev S32 : Shape := ⟨1, ![32]⟩
abbrev S29x1152 : Shape := ⟨2, ![29, 1152]⟩
abbrev S29 : Shape := ⟨1, ![29]⟩
abbrev S_ : Shape := ⟨0, ![]⟩
abbrev S32x1152 : Shape := ⟨2, ![32, 1152]⟩
abbrev S32x29 : Shape := ⟨2, ![32, 29]⟩
abbrev S1x29 : Shape := ⟨2, ![1, 29]⟩
abbrev S32x1 : Shape := ⟨2, ![32, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x2048x1152, .f32⟩
  | .hbm, ⟨1, _⟩ => ⟨S32, .i32⟩
  | .hbm, ⟨2, _⟩ => ⟨S29x1152, .f32⟩
  | .hbm, ⟨3, _⟩ => ⟨S29, .f32⟩
  | .hbm, ⟨4, _⟩ => ⟨S_, .f32⟩
  | .hbm, ⟨5, _⟩ => ⟨S32x2048x1152, .f32⟩
  | .hbm, ⟨6, _⟩ => ⟨S32x2048x1152, .f32⟩
  | .hbm, ⟨7, _⟩ => ⟨S_, .f32⟩
  | .hbm, ⟨8, _⟩ => ⟨S32x2048x1152, .f32⟩
  | .hbm, ⟨9, _⟩ => ⟨S32x2048x1152, .f32⟩
  | .hbm, ⟨10, _⟩ => ⟨S_, .f32⟩
  | .hbm, ⟨11, _⟩ => ⟨S32x1152, .f32⟩
  | .hbm, ⟨12, _⟩ => ⟨S32x29, .f32⟩
  | .hbm, ⟨13, _⟩ => ⟨S_, .f32⟩
  | .hbm, ⟨14, _⟩ => ⟨S29, .f32⟩
  | .hbm, ⟨15, _⟩ => ⟨S29, .f32⟩
  | .hbm, ⟨16, _⟩ => ⟨S1x29, .f32⟩
  | .hbm, ⟨17, _⟩ => ⟨S32x29, .f32⟩
  | .hbm, ⟨18, _⟩ => ⟨S32x29, .f32⟩
  | .hbm, ⟨19, _⟩ => ⟨S32, .f32⟩
  | .hbm, ⟨20, _⟩ => ⟨S32x1, .f32⟩
  | .hbm, ⟨21, _⟩ => ⟨S32x29, .f32⟩
  | .hbm, ⟨22, _⟩ => ⟨S32x29, .f32⟩
  | _, _ => ⟨S32x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S32x2048x1152 : S_.BroadcastsInDim S32x2048x1152 (![] : Fin 0 → Fin S32x2048x1152.rank)
  reducesTo_S32x2048x1152_S32x1152_d1 : S32x2048x1152.ReducesTo [1] S32x1152
  h_S_ : 0 < S_.numel
  bcast_S_S29 : S_.BroadcastsInDim S29 (![] : Fin 0 → Fin S29.rank)
  bcast_S29_S1x29_1 : S29.BroadcastsInDim S1x29 (![1] : Fin 1 → Fin S1x29.rank)
  bcast_S1x29_S32x29_0_1 : S1x29.BroadcastsInDim S32x29 (![0, 1] : Fin 2 → Fin S32x29.rank)
  bcast_S32_S32x1_0 : S32.BroadcastsInDim S32x1 (![0] : Fin 1 → Fin S32x1.rank)
  bcast_S32x1_S32x29_0_1 : S32x1.BroadcastsInDim S32x29 (![0, 1] : Fin 2 → Fin S32x29.rank)
  dot_S32x1152_S29x1152_S32x29_1_1_0_0_n_n_wf : DotDims.WF S32x1152 S29x1152 S32x29 [1] [1] [0] [0] [] []

variable [Facts₀]

def dot_S32x1152_S29x1152_S32x29_1_1_0_0_n_n : DotDims S32x1152 S29x1152 S32x29 where
  lhsContracting := [1]
  rhsContracting := [1]
  lhsNonContracting := [0]
  rhsNonContracting := [0]
  lhsBatch := []
  rhsBatch := []
  wf := dot_S32x1152_S29x1152_S32x29_1_1_0_0_n_n_wf

class Facts : Prop extends Facts₀ where

variable [Facts]
-- ==== Proof.LibTileSum.lean ====
/-
  A sum over a·b positions taken tile by tile, and a running total started from a constant.

  In any commutative additive monoid — the extended reals among them, where nothing is cancelled and so nothing
  has to be finite — a sum over the positions 0 … a·b − 1 is the sum over the a tiles of b consecutive positions
  of each tile's own sum; and a total that starts at a constant z and then receives the tile sums one after the
  other, ((z + s₀) + s₁) + …, is the whole sum plus z. Together: accumulating a contraction block by block from a
  constant gives the one long contraction plus that constant.
-/
import Mathlib.Algebra.BigOperators.Fin
import Mathlib.Logic.Equiv.Fin.Basic

open scoped BigOperators

namespace Cert.TileSum

variable {M : Type*} [AddCommMonoid M]

/-- A sum over `n = a·b` positions is the sum over the `a` tiles of the sum over the `b` positions of the tile,
    for any naming `pos k e` of position `k·b + e`. -/
theorem sum_tiles {n a b : ℕ} (hn : n = a * b) (f : Fin n → M) (pos : Fin a → Fin b → Fin n)
    (hpos : ∀ k e, (pos k e).val = k.val * b + e.val) :
    ∑ c : Fin n, f c = ∑ k : Fin a, ∑ e : Fin b, f (pos k e) := by
  subst hn
  rw [← Equiv.sum_comp finProdFinEquiv f, Fintype.sum_prod_type]
  refine Finset.sum_congr rfl fun k _ => Finset.sum_congr rfl fun e _ => congrArg f (Fin.ext ?_)
  rw [hpos]
  show e.val + b * k.val = k.val * b + e.val
  rw [Nat.mul_comm, Nat.add_comm]

/-- The same with the tiles counted by a natural number below `a`, as a running total counts them: `g k` is
    tile `k`'s sum for every `k < a`. -/
theorem sum_tiles_range {n a b : ℕ} (hn : n = a * b) (f : Fin n → M) (pos : Fin a → Fin b → Fin n)
    (hpos : ∀ k e, (pos k e).val = k.val * b + e.val) (g : ℕ → M)
    (hg : ∀ k : Fin a, g k.val = ∑ e : Fin b, f (pos k e)) :
    ∑ k ∈ Finset.range a, g k = ∑ c : Fin n, f c := by
  rw [sum_tiles hn f pos hpos, Finset.sum_range]
  exact Finset.sum_congr rfl fun k _ => hg k

/-- A total started at `z` that has received the tiles' sums is the whole sum plus `z`. -/
theorem start_add_tiles {n a b : ℕ} (hn : n = a * b) (f : Fin n → M) (pos : Fin a → Fin b → Fin n)
    (hpos : ∀ k e, (pos k e).val = k.val * b + e.val) (g : ℕ → M)
    (hg : ∀ k : Fin a, g k.val = ∑ e : Fin b, f (pos k e)) (z : M) :
    z + ∑ k ∈ Finset.range a, g k = (∑ c : Fin n, f c) + z := by
  rw [sum_tiles_range hn f pos hpos g hg, add_comm]

end Cert.TileSum
-- ==== Proof.PoolSpec.lean ====
/-
  What both programs compute, as one function of the four argument arrays.

  x is 32 × 2048 × 1152 (sample, time step, channel), len holds one 32-bit integer per sample, W is 29 × 1152
  (class, channel) and b has one entry per class.  The result at (sample p, class q) is

      ( Σ_c ((Σ_t x[p,t,c]) · (1/64)) · W[q,c]  +  (2048 · b[q] − 4096 · (0 + Σ_c W[q,c])) ) / float(len[p]),

  the time sum taken first (a temporal sum-pool), then the scale, the contraction with the class's weight row, the
  offset, and the division by the sample's length.  The constants are kept as the single-precision patterns the
  programs print; their real values are stated here once.

  Also here: reading x at natural-number coordinates (zero outside the array), which lets a running sum over
  blocks of 256 time steps be written without carrying bounds, and the regrouping of eight such block sums into
  the sum over all 2048 time steps.
-/
import Idealize.ShloMosaic.PureOps.Ideal
import Idealize.ShloMosaic.PureOps.Ideal.Laws
import Idealize.ShloMosaic.Lib.ValueIdx
import proofs.«124967_j89833535963819_2_alg».proof.Proof.LibTileSum

noncomputable section

open scoped BigOperators

namespace Cert.Pool

open Idealize.ShloMosaic Idealize.ShloMosaic.ValueIdx

/-! ## The printed constants -/

/-- The pattern of 0.015625 denotes the real 1/64. -/
theorem lit_inv64 : Ideal.ofBits .f32 0x3C800000#32 = ((1 / 64 : ℝ) : EReal) := by
  simp [Ideal.ofBits, Ideal.ieee, -EReal.coe_mul]; norm_num

/-- The pattern of 64.0 denotes the real 64. -/
theorem lit_64 : Ideal.ofBits .f32 0x42800000#32 = ((64 : ℝ) : EReal) := by
  simp [Ideal.ofBits, Ideal.ieee, -EReal.coe_mul]; norm_num

/-- The pattern of 2.0 denotes the real 2. -/
theorem lit_2 : Ideal.ofBits .f32 0x40000000#32 = ((2 : ℝ) : EReal) := by
  simp [Ideal.ofBits, Ideal.ieee, -EReal.coe_mul]; norm_num

/-- The pattern of 2048.0 denotes the real 2048. -/
theorem lit_2048 : Ideal.ofBits .f32 0x45000000#32 = ((2048 : ℝ) : EReal) := by
  simp [Ideal.ofBits, Ideal.ieee, -EReal.coe_mul]; norm_num

/-- The pattern of 4096.0 denotes the real 4096. -/
theorem lit_4096 : Ideal.ofBits .f32 0x45800000#32 = ((4096 : ℝ) : EReal) := by
  simp [Ideal.ofBits, Ideal.ieee, -EReal.coe_mul]; norm_num

/-! ## The result as one function of the arguments -/

/-- The numerator at (sample p, class q): the pooled, scaled, contracted sum plus the offset. -/
def num (X : (⟨3, ![32, 2048, 1152]⟩ : Shape).Idx → EReal) (W : (⟨2, ![29, 1152]⟩ : Shape).Idx → EReal)
    (B : (⟨1, ![29]⟩ : Shape).Idx → EReal) (p : Fin 32) (q : Fin 29) : EReal :=
  (∑ c : Fin 1152, ((∑ t : Fin 2048, X (ix3 p t c)) * Ideal.ofBits .f32 0x3C800000#32) * W (ix2 q c))
    + (Ideal.ofBits .f32 0x45000000#32 * B (ix1 q)
        - Ideal.ofBits .f32 0x45800000#32 * (Ideal.ofBits .f32 0x00000000#32 + ∑ c : Fin 1152, W (ix2 q c)))

/-- The result array: the numerator divided by the sample's length read as a signed integer. -/
def G (X : (⟨3, ![32, 2048, 1152]⟩ : Shape).Idx → EReal) (L : (⟨1, ![32]⟩ : Shape).Idx → BitVec 32)
    (W : (⟨2, ![29, 1152]⟩ : Shape).Idx → EReal) (B : (⟨1, ![29]⟩ : Shape).Idx → EReal) :
    (⟨2, ![32, 29]⟩ : Shape).Idx → EReal :=
  fun j => Ideal.div (num X W B (j 0) (j 1)) (FloatOps.sitofp (F := Ideal) .f32 (L (ix1 (j 0))))

theorem G_apply (X : (⟨3, ![32, 2048, 1152]⟩ : Shape).Idx → EReal) (L : (⟨1, ![32]⟩ : Shape).Idx → BitVec 32)
    (W : (⟨2, ![29, 1152]⟩ : Shape).Idx → EReal) (B : (⟨1, ![29]⟩ : Shape).Idx → EReal) (p : Fin 32) (q : Fin 29) :
    G X L W B (ix2 p q) = Ideal.div (num X W B p q) (FloatOps.sitofp (F := Ideal) .f32 (L (ix1 p))) := rfl

/-! ## x read at natural-number coordinates -/

/-- x at (a, b, c) when the three numbers are inside the array, zero otherwise. -/
def rd3 (X : (⟨3, ![32, 2048, 1152]⟩ : Shape).Idx → EReal) (a b c : ℕ) : EReal :=
  if h : a < 32 ∧ b < 2048 ∧ c < 1152 then X (ix3 ⟨a, h.1⟩ ⟨b, h.2.1⟩ ⟨c, h.2.2⟩) else 0

theorem rd3_of_lt (X : (⟨3, ![32, 2048, 1152]⟩ : Shape).Idx → EReal) {a b c : ℕ} (ha : a < 32) (hb : b < 2048)
    (hc : c < 1152) : rd3 X a b c = X (ix3 ⟨a, ha⟩ ⟨b, hb⟩ ⟨c, hc⟩) := by
  unfold rd3; rw [dif_pos ⟨ha, hb, hc⟩]

/-- Eight block sums over 256 time steps each are the sum over all 2048 time steps: nothing is cancelled, so
    nothing needs to be finite. -/
theorem sum_blocks (X : (⟨3, ![32, 2048, 1152]⟩ : Shape).Idx → EReal) (p : Fin 32) (c : Fin 1152) :
    (∑ k ∈ Finset.range 8, ∑ e : Fin 256, rd3 X p.val (k * 256 + e.val) c.val) = ∑ t : Fin 2048, X (ix3 p t c) :=
  Cert.TileSum.sum_tiles_range (a := 8) (b := 256) rfl (fun t : Fin 2048 => X (ix3 p t c))
    (fun k e => ⟨k.val * 256 + e.val, by have := k.isLt; have := e.isLt; omega⟩) (fun _ _ => rfl)
    (fun k => ∑ e : Fin 256, rd3 X p.val (k * 256 + e.val) c.val)
    (fun k => Finset.sum_congr rfl fun e _ =>
      rd3_of_lt X p.isLt (by have := k.isLt; have := e.isLt; omega) c.isLt)

end Cert.Pool

end
-- ==== Proof.PoolBody.lean ====
/-
  What the kernel body leaves behind at one grid point, as values.

  The body keeps a 16 × 1152 running total in a scratch buffer.  At the first time tile of a sample block it
  stores the zero block there and then adds the tile's sum over its 256 time steps; at every later tile it adds that
  tile's sum to what the tile before left; at the last tile it also reads the finished total back and writes the
  output block computed from it.  Each of these is one store that covers its whole buffer, so what the buffer holds
  afterwards is that store's payload, a pure function of the blocks the body loaded:
  the new total is `k0_pay2 (old total) (x block)` — with the zero block `k0_pay1` for the old total at a first tile —
  and the output block is `k0_pay3 (new total) (weights) (offset row) (length column)`.
-/
import proofs.«124967_j89833535963819_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile that is not the last: the scratch ends at the old total plus this tile's sum. -/
theorem scratch_B (c : Dev nD) (i : grid0.Coords) (a2 : Memref sig .tc .vmem S16x256x1152 .f32) (h2 : a2.IsWhole)
    (a3 : Memref sig .tc .vmem S1152x29 .f32) (h3 : a3.IsWhole) (a4 : Memref sig .tc .vmem S1x29 .f32) (h4 : a4.IsWhole)
    (a5 : Memref sig .tc .vmem S16x1 .f32) (h5 : a5.IsWhole) (a6 : Memref sig .tc .vmem S16x29 .f32) (h6 : a6.IsWhole)
    (a7 : Memref sig .tc .vmem S16x1152 .f32) (h7 : a7.IsWhole) (hc0 : ¬cond0_0 i) (hc1 : ¬cond0_1 i)
    (x0 : Vec F S16x256x1152 .f32) (x1 : Vec F S1152x29 .f32) (x2 : Vec F S1x29 .f32) (x3 : Vec F S16x1 .f32) (xs0 : Vec F S16x1152 .f32) :
    sout0_B_0 c i a2 h2 a3 h3 a4 h4 a5 h5 a6 h6 a7 h7 hc0 hc1 x0 x1 x2 x3 xs0 = k0_pay2 xs0 x0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz2]
  simp only [View.readAt_eq_ld, h7.read_unread, h2.read_unread, View.ld_unit_zero (S := S16x1152) hz2,
    View.ld_unit_zero (S := S16x256x1152) hz3]

/-- The first tile: the zero block is stored, read back, and this tile's sum added to it. -/
theorem scratch_A (c : Dev nD) (i : grid0.Coords) (a2 : Memref sig .tc .vmem S16x256x1152 .f32) (h2 : a2.IsWhole)
    (a3 : Memref sig .tc .vmem S1152x29 .f32) (h3 : a3.IsWhole) (a4 : Memref sig .tc .vmem S1x29 .f32) (h4 : a4.IsWhole)
    (a5 : Memref sig .tc .vmem S16x1 .f32) (h5 : a5.IsWhole) (a6 : Memref sig .tc .vmem S16x29 .f32) (h6 : a6.IsWhole)
    (a7 : Memref sig .tc .vmem S16x1152 .f32) (h7 : a7.IsWhole) (hc0 : cond0_0 i) (hc1 : ¬cond0_1 i)
    (x0 : Vec F S16x256x1152 .f32) (x1 : Vec F S1152x29 .f32) (x2 : Vec F S1x29 .f32) (x3 : Vec F S16x1 .f32) :
    sout0_A_0 c i a2 h2 a3 h3 a4 h4 a5 h5 a6 h6 a7 h7 hc0 hc1 x0 x1 x2 x3 = k0_pay2 k0_pay1 x0 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S16x1152) hz2, View.readCov_unit_zero (S := S16x1152) _ hz2]
  simp only [View.readAt_eq_ld, h2.read_unread, View.ld_unit_zero (S := S16x256x1152) hz3]

/-- The last tile: the scratch ends at the old total plus this tile's sum, as at any later tile. -/
theorem scratch_C (c : Dev nD) (i : grid0.Coords) (a2 : Memref sig .tc .vmem S16x256x1152 .f32) (h2 : a2.IsWhole)
    (a3 : Memref sig .tc .vmem S1152x29 .f32) (h3 : a3.IsWhole) (a4 : Memref sig .tc .vmem S1x29 .f32) (h4 : a4.IsWhole)
    (a5 : Memref sig .tc .vmem S16x1 .f32) (h5 : a5.IsWhole) (a6 : Memref sig .tc .vmem S16x29 .f32) (h6 : a6.IsWhole)
    (a7 : Memref sig .tc .vmem S16x1152 .f32) (h7 : a7.IsWhole) (hc0 : ¬cond0_0 i) (hc1 : cond0_1 i)
    (x0 : Vec F S16x256x1152 .f32) (x1 : Vec F S1152x29 .f32) (x2 : Vec F S1x29 .f32) (x3 : Vec F S16x1 .f32) (xs0 : Vec F S16x1152 .f32) :
    sout0_C_0 c i a2 h2 a3 h3 a4 h4 a5 h5 a6 h6 a7 h7 hc0 hc1 x0 x1 x2 x3 xs0 = k0_pay2 xs0 x0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h7.read_unread, h2.read_unread, View.ld_unit_zero (S := S16x1152) hz2,
    View.ld_unit_zero (S := S16x256x1152) hz3]

/-- The last tile's output block: computed from the finished total, the weights, the offset row and the lengths. -/
theorem out_C (c : Dev nD) (i : grid0.Coords) (a2 : Memref sig .tc .vmem S16x256x1152 .f32) (h2 : a2.IsWhole)
    (a3 : Memref sig .tc .vmem S1152x29 .f32) (h3 : a3.IsWhole) (a4 : Memref sig .tc .vmem S1x29 .f32) (h4 : a4.IsWhole)
    (a5 : Memref sig .tc .vmem S16x1 .f32) (h5 : a5.IsWhole) (a6 : Memref sig .tc .vmem S16x29 .f32) (h6 : a6.IsWhole)
    (a7 : Memref sig .tc .vmem S16x1152 .f32) (h7 : a7.IsWhole) (hc0 : ¬cond0_0 i) (hc1 : cond0_1 i)
    (x0 : Vec F S16x256x1152 .f32) (x1 : Vec F S1152x29 .f32) (x2 : Vec F S1x29 .f32) (x3 : Vec F S16x1 .f32) (xs0 : Vec F S16x1152 .f32) :
    out0_C_4 c i a2 h2 a3 h3 a4 h4 a5 h5 a6 h6 a7 h7 hc0 hc1 x0 x1 x2 x3 xs0 = k0_pay3 (k0_pay2 xs0 x0) x1 x2 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz2, View.readCov_unit_zero (S := S16x1152) _ hz2]
  simp only [View.readAt_eq_ld, h7.read_unread, h2.read_unread, h3.read_unread, h4.read_unread, h5.read_unread,
    View.ld_unit_zero (S := S16x1152) hz2, View.ld_unit_zero (S := S16x256x1152) hz3,
    View.ld_unit_zero (S := S1152x29) hz2, View.ld_unit_zero (S := S1x29) hz2, View.ld_unit_zero (S := S16x1) hz2]

end Cert.KernelIdeal.Body

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibMatrixReads.lean ====
/-
  Three reads of a matrix at one entry that a row-tiled or column-tiled kernel body meets:

  * an a×1 column spread over b lanes (`vector.broadcast` of a keepdims column) reads the column's entry;
  * row k of a matrix loaded as a 1×n row (a `vector.load` through the unit-stride rectangle at offset (k, 0) of
    sizes (1, n)) reads the matrix at (k, j);
  * column k of a matrix cut out as an a×1 column (`vector.extract_strided_slice` at offset (0, k)) and spread over
    b lanes reads the matrix at (p, k).
-/
import Idealize.ShloMosaic.Lib.Pipeline.Value
import Idealize.ShloMosaic.Lib.Pipeline.FrameBody
import Idealize.ShloMosaic.Lib.ValueLayout
import Idealize.ShloMosaic.Lib.ValueIdx

noncomputable section

namespace Cert.MatrixReads

open Idealize.ShloMosaic Idealize.ShloMosaic.ValueIdx

variable {α : Type}

/-- An a×1 column spread over b lanes reads, at (p, c), the column's entry p. -/
theorem column_spread_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row k of an n0×n1 matrix loaded as a 1×n1 row reads, at (0, j), the matrix at (k, j). -/
theorem row_load_apply {Val : EltTy → Type} {e : EltTy} {n0 n1 : ℕ} (X : (⟨2, ![n0, n1]⟩ : Shape).Idx → Val e) (k : Fin n0)
    (inb : ∀ a, (![k.val, 0] : Fin 2 → Nat) a + (![1, n1] : Fin 2 → Nat) a ≤ (⟨2, ![n0, n1]⟩ : Shape).size a)
    (j : Fin n1) :
    View.ld (Val := Val) X (Rect.unit (s := ⟨2, ![n0, n1]⟩) ![k.val, 0] ![1, n1] inb) (ix2 (0 : Fin 1) j) = X (ix2 k j) := by
  show X _ = X _
  refine congrArg X (funext fun ax => Fin.ext ?_)
  match ax with
  | ⟨0, _⟩ => show k.val + 1 * 0 = k.val; omega
  | ⟨1, _⟩ => show 0 + 1 * j.val = j.val; omega

/-- Column k of an a×n matrix cut out as an a×1 column and spread over b lanes reads, at (p, c), the matrix at (p, k). -/
theorem column_cut_spread_apply {a n b : ℕ} (X : (⟨2, ![a, n]⟩ : Shape).Idx → α) (o : ℕ) (k : Fin n) (hk : k.val = o)
    (hs : (⟨2, ![a, n]⟩ : Shape).Slices ![0, o] ⟨2, ![a, 1]⟩)
    (hb : (⟨2, ![a, 1]⟩ : Shape).Broadcasts ⟨2, ![a, b]⟩) (p : Fin a) (c : Fin b) :
    broadcastTo ⟨2, ![a, b]⟩ (extractStridedSlice ⟨2, ![a, 1]⟩ ![0, o] X hs) hb (ix2 p c) = X (ix2 p k) :=
  (column_spread_apply _ hb p c).trans (slice2_axis1_apply o X hs p (0 : Fin 1) k hk)

end Cert.MatrixReads

end
-- ==== Proof.LibMidReduce.lean ====
/-
  A sum over the MIDDLE axis of an a × b × c array, read at an entry, at the ideal values.

  `vector.multi_reduction <add>` over axis 1 of an a × b × c array, from the neutral accumulator, holds at (r, l) the
  sum over k of the array at (r, k, l): the reduced index (r, l) with the dropped coordinate k put back is (r, k, l).
  This is how the exact sum is defined once the summation index is renamed, so nothing is asked to be finite.
  (A pooling over time of a batch × time × channel block is this reduction.)
-/
import Idealize.ShloMosaic.PureOps.Ideal.Laws
import Idealize.ShloMosaic.Lib.ValueIdx

noncomputable section

open scoped BigOperators

namespace Cert.MidReduce

open Idealize.ShloMosaic Idealize.ShloMosaic.ValueIdx

variable {a b c : Nat}

/-- Putting the middle coordinate k back into (r, l) gives (r, k, l). -/
theorem lift_mid (h : (⟨3, ![a, b, c]⟩ : Shape).Reduces [1] (⟨2, ![a, c]⟩ : Shape)) (r : Fin a) (l : Fin c)
    (k : Fin ((⟨3, ![a, b, c]⟩ : Shape).size 1)) : h.lift (ix2 r l) k = ix3 r (⟨k.val, k.isLt⟩ : Fin b) l := by
  funext x; apply Fin.ext
  fin_cases x <;> rfl

/-- The sum over the middle axis, at (r, l): the sum over k of the array at (r, k, l). -/
theorem multiReduction_add_mid_apply {φ : FTy} (v : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (r : Fin a) (l : Fin c) :
    multiReduction .add [1] ⟨2, ![a, c]⟩ v acc h hφ hacc (ix2 r l) = ∑ k : Fin b, v (ix3 r k l) :=
  (Ideal.multiReduction_add_single v acc h hφ hacc (ix2 r l)).trans
    (Finset.sum_congr rfl fun k _ => congrArg v (lift_mid h r l k))

end Cert.MidReduce

end
-- ==== Proof.PoolPayload.lean ====
/-
  The body's three payloads read at one entry, at the ideal values.

  * the zero block holds 0 everywhere;
  * the new running total at (row r, channel c) is the old total there plus the sum over the tile's 256 time steps
    of the x block at (r, t, c) — a lane-wise reduction over the middle axis;
  * the output block at (row r, class o) is
        ( Σ_c (total[r,c] · (1/64)) · Wt[c,o]  +  offset[0,o] ) / length[r,0],
    the matrix product into a zero accumulator read as a plain sum, the 1 × 29 offset row copied to every row, the
    16 × 1 length column copied to every lane.  A change of float format is the identity here.
-/
import proofs.«124967_j89833535963819_2_alg».proof.Proof.Gen.KernelIdeal.Skeleton
import Idealize.ShloMosaic.PureOps.Ideal.Laws
import Idealize.ShloMosaic.Lib.ValueIdx
import Idealize.ShloMosaic.Lib.Pipeline.Value
import proofs.«124967_j89833535963819_2_alg».proof.Proof.LibPlainDot
import proofs.«124967_j89833535963819_2_alg».proof.Proof.LibRowVector
import proofs.«124967_j89833535963819_2_alg».proof.Proof.LibMatrixReads
import proofs.«124967_j89833535963819_2_alg».proof.Proof.LibMidReduce

noncomputable section

open scoped BigOperators

namespace Cert.KernelIdeal.Payload

open Cert.KernelIdeal Cert.KernelIdeal.Gen Idealize.ShloMosaic Idealize.ShloMosaic.ValueIdx

/-- The zero block. -/
theorem pay1_apply (j : S16x1152.Idx) : k0_pay1 (F := Ideal) j = 0 := by
  unfold k0_pay1
  rw [shapeCast_self]
  exact Ideal.ofBits_zero_f32

/-- The new running total: the old one plus the tile's sum over its time steps. -/
theorem pay2_apply (v3 : FVec Ideal S16x1152 .f32) (v4 : FVec Ideal S16x256x1152 .f32) (r : Fin 16) (c : Fin 1152) :
    k0_pay2 (F := Ideal) v3 v4 (ix2 r c) = v3 (ix2 r c) + ∑ t : Fin 256, v4 (ix3 r t c) := by
  unfold k0_pay2
  rw [shapeCast_self]
  exact congrArg (v3 (ix2 r c) + ·) (Cert.MidReduce.multiReduction_add_mid_apply (a := 16) (b := 256) (c := 1152) v4 _ _ _ _ r c)

/-- The output block. -/
theorem pay3_apply (v13 : FVec Ideal S16x1152 .f32) (v17 : FVec Ideal S1152x29 .f32) (v21 : FVec Ideal S1x29 .f32)
    (v25 : FVec Ideal S16x1 .f32) (r : Fin 16) (o : Fin 29) :
    k0_pay3 (F := Ideal) v13 v17 v21 v25 (ix2 r o)
      = Ideal.div ((∑ c : Fin 1152, (v13 (ix2 r c) * Ideal.ofBits .f32 0x3C800000#32) * v17 (ix2 c o)) + v21 (ix2 0 o))
          (v25 (ix2 r 0)) := by
  unfold k0_pay3
  rw [shapeCast_self, shapeCast_self, shapeCast_self]
  refine congrArg₂ Ideal.div (congrArg₂ (· + ·) ?_ ?_) ?_
  · exact Cert.PlainDot.matmul_zero_apply (m := 16) (k := 1152) (n := 29) dot_S16x1152_S1152x29_S16x29_1_0_0_1_n_n rfl none _ _ r o
  · exact Cert.RowVector.broadcastTo_row (R := 16) (n := 29) (by decide) v21 _ r o
  · exact Cert.MatrixReads.column_spread_apply (a := 16) (b := 29) v25 _ r o

end Cert.KernelIdeal.Payload

end
-- ==== Proof.LibHostRowSum.lean ====
/-
  The host's sum over the second axis of an [a, b] array, read at a row.

  `stablehlo.reduce` with an `add` body over axis 1, at the ideal values, holds at row r the initial value plus the sum
  over the row's entries: the reduced index r with the dropped coordinate k put back is (r, k). No finiteness is asked:
  this is how the exact sum is defined, with the summation index renamed.
-/
import Idealize.ShloMosaic.Lib.Pipeline.Value
import Idealize.ShloMosaic.Lib.ValueIdx
import Idealize.ShloMosaic.PureOps.Ideal.Laws

noncomputable section

open scoped BigOperators

namespace Cert.HostRowSum

open Idealize.ShloMosaic Idealize.ShloMosaic.ValueIdx

/-- The reduced index r with the second-axis coordinate k put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A shape fact of the host's reduction names the inserted index as well. -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) :=
  let ⟨hr, hs⟩ := h'; ⟨hr, Nat.one_pos, hs⟩

/-- The host's sum over the second axis, at row r: the initial value plus the sum over the row. -/
theorem hostRowSum_apply {a b : ℕ} (src : (⟨2, ![a, b]⟩ : Shape).Idx → EReal) (init : EReal)
    (h' : (⟨2, ![a, b]⟩ : Shape).ReducesTo [1] (⟨1, ![a]⟩ : Shape)) (r : Fin a) :
    Ideal.hostReduceAdd h' src init (ix1 r) = init + ∑ k : Fin b, src (ix2 r k) :=
  (Ideal.hostReduceAdd_single h' (reduces_of_reducesTo h') src init (ix1 r)).trans
    (congrArg (init + ·) (Finset.sum_congr rfl fun k _ => congrArg src (lift_row (reduces_of_reducesTo h') r k)))

/-- With the zero word as the initial value: the sum over the row. -/
theorem hostRowSum_zero_apply {a b : ℕ} (src : (⟨2, ![a, b]⟩ : Shape).Idx → EReal)
    (h' : (⟨2, ![a, b]⟩ : Shape).ReducesTo [1] (⟨1, ![a]⟩ : Shape)) (r : Fin a) :
    Ideal.hostReduceAdd h' src (Ideal.ofBits .f32 0x00000000#32) (ix1 r) = ∑ k : Fin b, src (ix2 r k) := by
  rw [hostRowSum_apply, Ideal.ofBits_zero_f32, zero_add]

end Cert.HostRowSum

end
-- ==== Proof.PoolEntry.lean ====
/-
  What the kernel's launch finds in the three arrays that the surrounding program computes before it, read at an
  entry, at the ideal values:

  * the weights transposed to 1152 × 29: entry (c, o) is W[o, c];
  * the offset row, 1 × 29: entry (0, o) is 2048 · b[o] − 4096 · (0 + Σ_c W[o, c]) — a host sum over the weight
    row, two scalar constants spread over the 29 classes, and a reshape of the length-29 vector to a row;
  * the length column, 32 × 1: entry (p, 0) is the p-th length read as a signed integer — a conversion and a
    reshape of the length-32 vector to a column.
-/
import proofs.«124967_j89833535963819_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal.Laws
import proofs.«124967_j89833535963819_2_alg».proof.Proof.LibRowVector
import proofs.«124967_j89833535963819_2_alg».proof.Proof.LibHostRowSum

noncomputable section

open scoped BigOperators

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ)

/-- The four argument arrays on core c, at the ideal values. -/
abbrev argX (c : Dev nD) : (⟨3, ![32, 2048, 1152]⟩ : Shape).Idx → EReal := m ((c : Thread nD τ).loc main_arg0)
abbrev argL (c : Dev nD) : (⟨1, ![32]⟩ : Shape).Idx → BitVec 32 := m ((c : Thread nD τ).loc main_arg1)
abbrev argW (c : Dev nD) : (⟨2, ![29, 1152]⟩ : Shape).Idx → EReal := m ((c : Thread nD τ).loc main_arg2)
abbrev argB (c : Dev nD) : (⟨1, ![29]⟩ : Shape).Idx → EReal := m ((c : Thread nD τ).loc main_arg3)

/-- A length-n vector reshaped to an n × 1 column, at (k, 0): the vector at k. -/
theorem shapeCast_col {α : Type} {n : Nat} (x : (⟨1, ![n]⟩ : Shape).Idx → α)
    (h : (⟨1, ![n]⟩ : Shape).ShapeCasts ⟨2, ![n, 1]⟩) (k : Fin n) :
    shapeCast ⟨2, ![n, 1]⟩ x h (ix2 k (0 : Fin 1)) = x (ix1 k) :=
  shapeCast_apply x h (ix2 k (0 : Fin 1)) (ix1 k) (by
    rw [Shape.rowMajor_val_two, Shape.rowMajor_val_one]
    show k.val = k.val * 1 + 0
    omega)

/-- A scalar constant spread over the 29 classes, at any class: the constant. -/
theorem splat_apply (b : BitVec 32) (j : S29.Idx) :
    broadcastInDim S29 ![] bcast_S_S29 (constant (F := Ideal) S_ .f32 b) j = Ideal.ofBits .f32 b :=
  broadcastInDim_apply _ bcast_S_S29 _ j (fun a => a.elim0) (fun a => a.elim0)

/-- The offset as a length-29 vector of the weights and the bias. -/
def offsetVec (W : FVec Ideal S29x1152 .f32) (B : FVec Ideal S29 .f32) : FVec Ideal S29 .f32 :=
  subf (mulf (broadcastInDim S29 ![] bcast_S_S29 (constant (F := Ideal) S_ .f32 0x45000000#32)) B)
    (mulf (broadcastInDim S29 ![] bcast_S_S29 (constant (F := Ideal) S_ .f32 0x45800000#32))
      (Host.reduceAdd (F := Ideal) W (constant (F := Ideal) S_ .f32 0x00000000#32) reducesTo_S29x1152_S29_d1 h_S_))

theorem offsetVec_apply (W : FVec Ideal S29x1152 .f32) (B : FVec Ideal S29 .f32) (o : Fin 29) :
    offsetVec W B (ix1 o) = Ideal.ofBits .f32 0x45000000#32 * B (ix1 o)
      - Ideal.ofBits .f32 0x45800000#32 * (Ideal.ofBits .f32 0x00000000#32 + ∑ k : Fin 1152, W (ix2 o k)) :=
  congrArg₂ (· - ·) (congrArg (· * B (ix1 o)) (splat_apply _ _))
    (congrArg₂ (· * ·) (splat_apply _ _)
      (Cert.HostRowSum.hostRowSum_apply W (Ideal.ofBits .f32 0x00000000#32) reducesTo_S29x1152_S29_d1 o))

/-- The launch finds the transposed weights, -/
theorem V_v0 (c : Dev nD) : (V m c main_v0 : S1152x29.Idx → EReal)
    = transpose S1152x29 [1, 0] (m ((c : Thread nD τ).loc main_arg2)) transposes_S29x1152_S1152x29_1_0 := by
  dsimp only [Gen.V, Gen.hostOps0]; after_results

/-- the offset vector as a row, -/
theorem V_v7 (c : Dev nD) : (V m c main_v7 : S1x29.Idx → EReal)
    = shapeCast S1x29 (offsetVec (m ((c : Thread nD τ).loc main_arg2)) (m ((c : Thread nD τ).loc main_arg3))) shapeCasts_S29_S1x29 := by
  dsimp only [Gen.V, Gen.hostOps0]; after_results; rfl

/-- and the converted lengths as a column. -/
theorem V_v9 (c : Dev nD) : (V m c main_v9 : S32x1.Idx → EReal)
    = shapeCast S32x1 (sitofp (F := Ideal) .f32 (m ((c : Thread nD τ).loc main_arg1))) shapeCasts_S32_S32x1 := by
  dsimp only [Gen.V, Gen.hostOps0]; after_results; rfl

theorem wt_apply (c : Dev nD) (k : Fin 1152) (o : Fin 29) :
    (V m c main_v0 : S1152x29.Idx → EReal) (ix2 k o) = argW m c (ix2 o k) :=
  (congrFun (V_v0 m c) (ix2 k o)).trans
    (transpose_apply [1, 0] _ transposes_S29x1152_S1152x29_1_0 (ix2 k o) (ix2 o k) (fun b => by fin_cases b <;> rfl))

theorem offset_apply (c : Dev nD) (o : Fin 29) :
    (V m c main_v7 : S1x29.Idx → EReal) (ix2 (0 : Fin 1) o)
      = Ideal.ofBits .f32 0x45000000#32 * argB m c (ix1 o)
        - Ideal.ofBits .f32 0x45800000#32 * (Ideal.ofBits .f32 0x00000000#32 + ∑ k : Fin 1152, argW m c (ix2 o k)) :=
  (congrFun (V_v7 m c) (ix2 (0 : Fin 1) o)).trans
    ((Cert.RowVector.shapeCast_row _ shapeCasts_S29_S1x29 o).trans (offsetVec_apply _ _ o))

theorem len_apply (c : Dev nD) (p : Fin 32) :
    (V m c main_v9 : S32x1.Idx → EReal) (ix2 p (0 : Fin 1))
      = FloatOps.sitofp (F := Ideal) .f32 (argL m c (ix1 p)) :=
  (congrFun (V_v9 m c) (ix2 p (0 : Fin 1))).trans (shapeCast_col _ shapeCasts_S32_S32x1 p)

end Cert.KernelIdeal.Entry

end
-- ==== Proof.PoolBlocks.lean ====
/-
  The blocks the body loads at grid point t, read at an entry of the argument arrays.

  Point t = 8·(sample block) + (time tile).  The x block holds samples 16·(t/8) … +15 and time steps
  256·(t%8) … +255, all channels; the weights and the offset row are whole at every point; the length block holds
  the same 16 samples.  The output block written back at a last tile covers those 16 samples' rows.
-/
import proofs.«124967_j89833535963819_2_alg».proof.Proof.Gen.KernelIdeal.Frame
import Idealize.ShloMosaic.Lib.Pipeline.Value
import proofs.«124967_j89833535963819_2_alg».proof.Proof.PoolSpec

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The block indices of the five windows at every point of the grid. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val / 8 ∧ win0_3.index t (1 : Fin 2) = 0)
    ∧ (win0_4.index t (0 : Fin 2) = t.val / 8 ∧ win0_4.index t (1 : Fin 2) = 0) :=
  (by decide +kernel : ∀ t : Fin grid0.N, _)

/-- The x block at point t, at (row r, step e, channel k): x at (16·(t/8) + r, 256·(t%8) + e, k). -/
theorem blk0_apply (c : Dev nD) (t : Fin cfg0.N) (r : Fin 16) (e : Fin 256) (k : Fin 1152) :
    (iblk m c 0 t : Vec Ideal S16x256x1152 .f32) (ix3 r e k)
      = Cert.Pool.rd3 (m ((c : Thread nD τ).loc main_arg0)) (16 * (t.val / 8) + r.val) (t.val % 8 * 256 + e.val) k.val := by
  obtain ⟨⟨e0, e1, e2⟩, -⟩ := idx_facts t
  have hN : t.val < 16 := lt_of_lt_of_eq t.isLt N_0
  rw [Cert.Pool.rd3_of_lt _ (by omega) (by omega) k.isLt]
  unfold iblk
  rw [View.read_apply]
  show V m c main_arg0 _ = _
  refine (congrFun (V_main_arg0 m c) _).trans (congrArg _ (funext fun a => Fin.ext ?_))
  match a with
  | ⟨0, _⟩ => show win0_0.index t (0 : Fin 3) * 16 + 1 * r.val = 16 * (t.val / 8) + r.val; rw [e0]; omega
  | ⟨1, _⟩ => show win0_0.index t (1 : Fin 3) * 256 + 1 * e.val = t.val % 8 * 256 + e.val; rw [e1]; omega
  | ⟨2, _⟩ => show win0_0.index t (2 : Fin 3) * 1152 + 1 * k.val = k.val; rw [e2]; omega

/-- The weights block at any point is the whole transposed-weights array. -/
theorem blk1_apply (c : Dev nD) (t : Fin cfg0.N) (k : Fin 1152) (o : Fin 29) :
    (iblk m c 1 t : Vec Ideal S1152x29 .f32) (ix2 k o) = (V m c main_v0 : S1152x29.Idx → EReal) (ix2 k o) := by
  obtain ⟨-, ⟨e0, e1⟩, -⟩ := idx_facts t
  unfold iblk
  rw [View.read_apply]
  show V m c main_v0 _ = _
  refine congrArg _ (funext fun a => Fin.ext ?_)
  match a with
  | ⟨0, _⟩ => show win0_1.index t (0 : Fin 2) * 1152 + 1 * k.val = k.val; rw [e0]; omega
  | ⟨1, _⟩ => show win0_1.index t (1 : Fin 2) * 29 + 1 * o.val = o.val; rw [e1]; omega

/-- The offset block at any point is the whole offset row. -/
theorem blk2_apply (c : Dev nD) (t : Fin cfg0.N) (o : Fin 29) :
    (iblk m c 2 t : Vec Ideal S1x29 .f32) (ix2 (0 : Fin 1) o) = (V m c main_v7 : S1x29.Idx → EReal) (ix2 (0 : Fin 1) o) := by
  obtain ⟨-, -, ⟨e0, e1⟩, -⟩ := idx_facts t
  unfold iblk
  rw [View.read_apply]
  show V m c main_v7 _ = _
  refine congrArg _ (funext fun a => Fin.ext ?_)
  match a with
  | ⟨0, _⟩ => show win0_2.index t (0 : Fin 2) * 1 + 1 * 0 = 0; rw [e0]
  | ⟨1, _⟩ => show win0_2.index t (1 : Fin 2) * 29 + 1 * o.val = o.val; rw [e1]; omega

/-- The length block at point t, at row r: the length column at sample 16·(t/8) + r. -/
theorem blk3_apply (c : Dev nD) (t : Fin cfg0.N) (r : Fin 16) (p : Fin 32) (hp : p.val = 16 * (t.val / 8) + r.val) :
    (iblk m c 3 t : Vec Ideal S16x1 .f32) (ix2 r (0 : Fin 1)) = (V m c main_v9 : S32x1.Idx → EReal) (ix2 p (0 : Fin 1)) := by
  obtain ⟨-, -, -, ⟨e0, e1⟩, -⟩ := idx_facts t
  unfold iblk
  rw [View.read_apply]
  show V m c main_v9 _ = _
  refine congrArg _ (funext fun a => Fin.ext ?_)
  match a with
  | ⟨0, _⟩ => show win0_3.index t (0 : Fin 2) * 16 + 1 * r.val = p.val; rw [e0, hp]; omega
  | ⟨1, _⟩ => show win0_3.index t (1 : Fin 2) * 1 + 1 * 0 = 0; rw [e1]

end Cert.KernelIdeal.Blocks

end
-- ==== Proof.PoolRun.lean ====
/-
  The kernel's result array as the common function of the arguments.

  The grid has 2 sample blocks × 8 time tiles; point t = 8·(sample block) + (time tile).  By induction on the point,
  the running total after point t at (row r, channel k) is the sum, over the time tiles 0 … t%8 of this sample block
  and the 256 time steps of each tile, of x at (16·(t/8) + r, 256·tile + step, k): the first tile starts from the zero
  block, every later tile adds its own sum to what the tile before left.  At a last tile (t%8 = 7) the eight tile sums
  are the sum over all 2048 time steps — a regrouping of a finite sum, with nothing cancelled — and the output block
  at (r, o) is the common function at (16·(t/8) + r, o).  The two last tiles' blocks are the top and bottom 16 rows of
  the 32 × 29 result, so together they cover it.
-/
import proofs.«124967_j89833535963819_2_alg».proof.Proof.Gen.KernelIdeal.Value
import proofs.«124967_j89833535963819_2_alg».proof.Proof.PoolSpec
import proofs.«124967_j89833535963819_2_alg».proof.Proof.PoolBody
import proofs.«124967_j89833535963819_2_alg».proof.Proof.PoolPayload
import proofs.«124967_j89833535963819_2_alg».proof.Proof.PoolEntry
import proofs.«124967_j89833535963819_2_alg».proof.Proof.PoolBlocks

noncomputable section

open scoped BigOperators

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Entry

variable (m : (ℓ : Loc nD τ sig) → Buf (Elt Ideal) ℓ) (ρ : Dev nD → PrngReg)

/-- The components of a pair that is known by an equation. -/
theorem fst_of_eq {α β : Type} {x : α × β} {a : α} {b : β} (h : x = (a, b)) : x.1 = a := by rw [h]
theorem snd_of_eq {α β : Type} {x : α × β} {a : α} {b : β} (h : x = (a, b)) : x.2 = b := by rw [h]

/-- The tile's own sum at (r, k): the x block summed over its 256 time steps. -/
abbrev tileSum (c : Dev nD) (t : Fin cfg0.N) (r : Fin 16) (k : Fin 1152) : EReal :=
  ∑ e : Fin 256, (iblk m c 0 t : Vec Ideal S16x256x1152 .f32) (ix3 r e k)

/-- At a first tile the running total is the tile's own sum (the zero block read back adds nothing). -/
theorem total_first (c : Dev nD) (t : Fin cfg0.N) (h0 : t.val % 8 = 0) (r : Fin 16) (k : Fin 1152) :
    (outsAt0 m c t.val t.isLt).2 (ix2 r k) = tileSum m c t r k := by
  have h1 : ¬t.val % 8 = 7 := by omega
  refine (congrFun (snd_of_eq (outsAt0_A m c t h0 h1)) (ix2 r k)).trans ?_
  refine (congrFun (Body.scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 r k)).trans ?_
  refine (Payload.pay2_apply (k0_pay1 (F := Ideal)) (iblk m c 0 t) r k).trans ?_
  rw [Payload.pay1_apply, zero_add]

/-- At a later tile it is what the tile before left plus the tile's own sum. -/
theorem total_later (c : Dev nD) (t : Fin cfg0.N) (h0 : ¬t.val % 8 = 0) (r : Fin 16) (k : Fin 1152) :
    (outsAt0 m c t.val t.isLt).2 (ix2 r k)
      = (outsAt0 m c (t.val - 1) (Nat.lt_of_le_of_lt (Nat.sub_le _ _) t.isLt)).2 (ix2 r k) + tileSum m c t r k := by
  by_cases h1 : t.val % 8 = 7
  · refine (congrFun (snd_of_eq (outsAt0_C m c t h0 h1)) (ix2 r k)).trans ?_
    refine (congrFun (Body.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2) (ix2 r k)).trans ?_
    exact Payload.pay2_apply _ (iblk m c 0 t) r k
  · refine (congrFun (snd_of_eq (outsAt0_B m c t h0 h1)) (ix2 r k)).trans ?_
    refine (congrFun (Body.scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2) (ix2 r k)).trans ?_
    exact Payload.pay2_apply _ (iblk m c 0 t) r k

/-- The tile's own sum in the coordinates of x. -/
theorem tileSum_eq (c : Dev nD) (t : Fin cfg0.N) (r : Fin 16) (k : Fin 1152) :
    tileSum m c t r k = ∑ e : Fin 256, Cert.Pool.rd3 (argX m c) (16 * (t.val / 8) + r.val) (t.val % 8 * 256 + e.val) k.val :=
  Finset.sum_congr rfl fun e _ => Blocks.blk0_apply m c t r e k

/-- At a first tile, in closed form: the one tile sum so far. -/
theorem total_first_closed (c : Dev nD) (t : Fin cfg0.N) (h0 : t.val % 8 = 0) (r : Fin 16) (k : Fin 1152) :
    (outsAt0 m c t.val t.isLt).2 (ix2 r k)
      = ∑ s ∈ Finset.range (t.val % 8 + 1),
          ∑ e : Fin 256, Cert.Pool.rd3 (argX m c) (16 * (t.val / 8) + r.val) (s * 256 + e.val) k.val := by
  refine (total_first m c t h0 r k).trans ((tileSum_eq m c t r k).trans ?_)
  rw [h0]
  exact (Finset.sum_range_one
    (fun s => ∑ e : Fin 256, Cert.Pool.rd3 (argX m c) (16 * (t.val / 8) + r.val) (s * 256 + e.val) k.val)).symm

/-- THE RUNNING TOTAL after point n: the tile sums of this sample block's tiles 0 … n % 8. -/
theorem total_eq (c : Dev nD) : ∀ (n : ℕ) (h : n < cfg0.N) (r : Fin 16) (k : Fin 1152),
    (outsAt0 m c n h).2 (ix2 r k)
      = ∑ s ∈ Finset.range (n % 8 + 1),
          ∑ e : Fin 256, Cert.Pool.rd3 (argX m c) (16 * (n / 8) + r.val) (s * 256 + e.val) k.val := by
  intro n
  induction n with
  | zero =>
    intro h r k
    exact total_first_closed m c ⟨0, h⟩ rfl r k
  | succ n ih =>
    intro h r k
    by_cases h0 : (n + 1) % 8 = 0
    · exact total_first_closed m c ⟨n + 1, h⟩ h0 r k
    · have hm : (n + 1) % 8 = n % 8 + 1 := by omega
      have hd : (n + 1) / 8 = n / 8 := by omega
      refine (total_later m c ⟨n + 1, h⟩ h0 r k).trans ?_
      rw [tileSum_eq m c ⟨n + 1, h⟩ r k]
      show (outsAt0 m c n _).2 (ix2 r k)
          + (∑ e : Fin 256, Cert.Pool.rd3 (argX m c) (16 * ((n + 1) / 8) + r.val) ((n + 1) % 8 * 256 + e.val) k.val) = _
      rw [ih (Nat.lt_of_succ_lt h) r k, hm, hd, Finset.sum_range_succ _ (n % 8 + 1)]

/-- THE OUTPUT BLOCK of a last tile, at (r, o): the common function at (16·(t/8) + r, o). -/
theorem out_entry (c : Dev nD) (t : Fin cfg0.N) (h1 : t.val % 8 = 7) (r : Fin 16) (o : Fin 29) (p : Fin 32)
    (hp : p.val = 16 * (t.val / 8) + r.val) :
    (outsAt0 m c t.val t.isLt).1 (ix2 r o) = Cert.Pool.G (argX m c) (argL m c) (argW m c) (argB m c) (ix2 p o) := by
  have h0 : ¬t.val % 8 = 0 := by omega
  have s2 : (outsAt0 m c t.val t.isLt).2
      = k0_pay2 (outsAt0 m c (t.val - 1) (Nat.lt_of_le_of_lt (Nat.sub_le _ _) t.isLt)).2 (iblk m c 0 t) :=
    (snd_of_eq (outsAt0_C m c t h0 h1)).trans
      (Body.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2)
  have s1 : (outsAt0 m c t.val t.isLt).1
      = k0_pay3 (outsAt0 m c t.val t.isLt).2 (iblk m c 1 t) (iblk m c 2 t) (iblk m c 3 t) :=
    (fst_of_eq (outsAt0_C m c t h0 h1)).trans
      ((Body.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2).trans
        (congrArg (fun z => k0_pay3 z (iblk m c 1 t) (iblk m c 2 t) (iblk m c 3 t)) s2.symm))
  refine (congrFun s1 (ix2 r o)).trans ?_
  refine (Payload.pay3_apply (outsAt0 m c t.val t.isLt).2 (iblk m c 1 t) (iblk m c 2 t) (iblk m c 3 t) r o).trans ?_
  rw [Cert.Pool.G_apply]
  unfold Cert.Pool.num
  refine congrArg₂ Ideal.div (congrArg₂ (· + ·) (Finset.sum_congr rfl fun k _ => ?_) ?_) ?_
  · rw [total_eq m c t.val t.isLt r k, show t.val % 8 + 1 = 8 by omega, ← hp, Cert.Pool.sum_blocks (argX m c) p k,
      Blocks.blk1_apply m c t k o, Entry.wt_apply m c k o]
  · exact (Blocks.blk2_apply m c t o).trans (Entry.offset_apply m c o)
  · exact (Blocks.blk3_apply m c t r p hp).trans (Entry.len_apply m c p)

/-- Where the output block's entry (r, o) at point t lies in the result array. -/
theorem emb4 (t : Fin cfg0.N) (r : Fin 16) (o : Fin 29) (p : Fin 32) (hp : p.val = 16 * (t.val / 8) + r.val) :
    ((cfg0.win 4).blk t).view.emb (ix2 r o) = ix2 p o := by
  obtain ⟨-, -, -, -, ⟨e0, e1⟩⟩ := Blocks.idx_facts t
  funext a; apply Fin.ext
  match a with
  | ⟨0, _⟩ => show win0_4.index t (0 : Fin 2) * 16 + 1 * r.val = p.val; rw [e0, hp]; omega
  | ⟨1, _⟩ => show win0_4.index t (1 : Fin 2) * 29 + 1 * o.val = o.val; rw [e1]; omega

/-- WHAT A LAST TILE WRITES BACK is its block of the common function of the arguments. -/
theorem flushed_eq (c : Dev nD) (t : Fin cfg0.N) (hf : (cfg0.win 4).flush t = true) :
    (dats m 0 c).flushed 4 t
      = ((cfg0.win 4).blk t).view.read (Elt Ideal) (Cert.Pool.G (argX m c) (argL m c) (argW m c) (argB m c)) := by
  have h1 : t.val % 8 = 7 := (flush0_4 t).mp hf
  have hN : t.val < 16 := lt_of_lt_of_eq t.isLt N_0
  rw [Value.flushed4]
  funext j
  obtain ⟨r, o, rfl⟩ : ∃ (r : Fin 16) (o : Fin 29), j = ix2 r o := ⟨j 0, j 1, eq_ix2 j⟩
  show (outsAt0 m c t.val t.isLt).1 (ix2 r o)
    = Cert.Pool.G (argX m c) (argL m c) (argW m c) (argB m c) (((cfg0.win 4).blk t).view.emb (ix2 r o))
  rw [emb4 t r o ⟨16 * (t.val / 8) + r.val, by have := r.isLt; omega⟩ rfl]
  exact out_entry m c t h1 r o _ rfl

/-- An index of the result array is in point t's block iff each coordinate is in the block's range. -/
theorem mem_blk4 (t : Fin cfg0.N) (i : S32x29.Idx) :
    i ∈ ((cfg0.win 4).blk t).view.set
      ↔ ∀ a : Fin 2, win0_4.index t a * S16x29.size a ≤ (i a).val ∧ (i a).val < win0_4.index t a * S16x29.size a + S16x29.size a := by
  show i ∈ ((View.whole main_v10).slice (win0_4.rect t)).set ↔ _
  rw [View.set_slice_whole, Rect.mem_set_unit]
  exact Iff.rfl

/-- THE RESULT ARRAY after the run is the common function of the arguments: rows 0–15 are written back at point 7,
    rows 16–31 at point 15. -/
theorem final (c : Dev nD) :
    (dats m 0 c).arrAt 4 cfg0.N = Cert.Pool.G (argX m c) (argL m c) (argW m c) (argB m c) :=
  (dats m 0 c).arrAt_eq_of_cover 4 (Cert.Pool.G (argX m c) (argL m c) (argW m c) (argB m c)) (flushed_eq m c) fun i => by
    have hi0 : (i 0).val < 32 := (i 0).isLt
    have hi1 : (i 1).val < 29 := (i 1).isLt
    have hN : cfg0.N = 16 := N_0
    let t : Fin cfg0.N := ⟨8 * ((i 0).val / 16) + 7, by rw [hN]; omega⟩
    have ht : t.val = 8 * ((i 0).val / 16) + 7 := rfl
    obtain ⟨-, -, -, -, ⟨e0, e1⟩⟩ := Blocks.idx_facts t
    refine ⟨t, (flush0_4 t).mpr (by rw [ht]; omega), ?_⟩
    rw [mem_blk4]
    intro a
    match a with
    | ⟨0, _⟩ =>
      show win0_4.index t (0 : Fin 2) * 16 ≤ (i 0).val ∧ (i 0).val < win0_4.index t (0 : Fin 2) * 16 + 16
      rw [e0, ht]; omega
    | ⟨1, _⟩ =>
      show win0_4.index t (1 : Fin 2) * 29 ≤ (i 1).val ∧ (i 1).val < win0_4.index t (1 : Fin 2) * 29 + 29
      rw [e1]; omega

/-- The kernel's run, read: the result array at the common function of the arguments, the arguments unchanged. -/
theorem run : θ_run defs (onTc (τ := τ) (main (F := Ideal))) ⟨m, fun _ => 0, ρ⟩ fun r => ∀ c : Dev nD,
      r.2.mem ((c : Thread nD τ).loc main_v10) = Cert.Pool.G (argX m c) (argL m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.PoolLaw.lean ====
/-
  The algebra that joins the two programs, over the extended reals.

  One program pools first: for each channel c it sums x over time, scales the sum by s = 1/64, contracts it with the
  weight row w, and adds the offset k₁·b − k₂·(0 + Σ_c w c), where k₂ = (number of time steps)·2.  The other shifts
  first: it forms x·s − 2 at every time step, sums that over time from zero, contracts with w, and adds k₁·b.
  For real data the two agree: Σ_t (x·s − 2) = (Σ_t x)·s − k₂, and the −k₂ leaves the contraction as −k₂·Σ_c w c.
  Distributivity and the cancellation are used, so every quantity is taken to be a real number.
-/
import Mathlib.Data.EReal.Operations
import Mathlib.Algebra.BigOperators.Ring.Finset
import proofs.«124967_j89833535963819_2_alg».proof.Proof.LibRealSums

open scoped BigOperators

namespace Cert.Pool

/-- The real identity behind the law. -/
theorem pool_law_real {τ κ : Type*} [Fintype τ] [Fintype κ] (x : τ → κ → ℝ) (w : κ → ℝ) (b s two k1 : ℝ) :
    (∑ c, (∑ t, x t c) * s * w c) + (k1 * b - (Fintype.card τ : ℝ) * two * ∑ c, w c)
      = (∑ c, (∑ t, (x t c * s - two)) * w c) + k1 * b := by
  have e : ∀ c, (∑ t, (x t c * s - two)) * w c = (∑ t, x t c) * s * w c - (Fintype.card τ : ℝ) * two * w c := fun c => by
    rw [Finset.sum_sub_distrib, Finset.sum_const, Finset.card_univ, nsmul_eq_mul, ← Finset.sum_mul, sub_mul]
  rw [Finset.sum_congr rfl fun c _ => e c, Finset.sum_sub_distrib, ← Finset.mul_sum]
  ring

/-- Pool, scale, contract and offset against shift, pool, contract and offset: equal on real data, when the
    offset's constant k₂ is the number of time steps times the shift. -/
theorem pool_law {τ κ : Type*} [Fintype τ] [Fintype κ] (x : τ → κ → ℝ) (w : κ → ℝ) (b s two k1 k2 : ℝ)
    (h : (Fintype.card τ : ℝ) * two = k2) :
    (∑ c, ((∑ t, (x t c : EReal)) * (s : EReal)) * (w c : EReal))
        + ((k1 : EReal) * (b : EReal) - (k2 : EReal) * ((0 : EReal) + ∑ c, (w c : EReal)))
      = (∑ c, ((0 : EReal) + ∑ t, ((x t c : EReal) * (s : EReal) - (two : EReal))) * (w c : EReal))
        + (k1 : EReal) * (b : EReal) := by
  have L : ∀ c, ((∑ t, (x t c : EReal)) * (s : EReal)) * (w c : EReal) = (((∑ t, x t c) * s * w c : ℝ) : EReal) := fun c => by
    rw [Cert.ScaledSum.coe_sum, ← EReal.coe_mul, ← EReal.coe_mul]
  have R : ∀ c, ((0 : EReal) + ∑ t, ((x t c : EReal) * (s : EReal) - (two : EReal))) * (w c : EReal)
      = (((∑ t, (x t c * s - two)) * w c : ℝ) : EReal) := fun c => by
    rw [zero_add, Finset.sum_congr rfl (fun t _ => show (x t c : EReal) * (s : EReal) - (two : EReal) = ((x t c * s - two : ℝ) : EReal) by
      rw [← EReal.coe_mul, ← EReal.coe_sub]), Cert.ScaledSum.coe_sum, ← EReal.coe_mul]
  rw [Finset.sum_congr rfl (fun c _ => L c), Finset.sum_congr rfl (fun c _ => R c), zero_add, Cert.ScaledSum.coe_sum,
    Cert.ScaledSum.coe_sum, Cert.ScaledSum.coe_sum, ← EReal.coe_mul, ← EReal.coe_mul, ← EReal.coe_sub, ← EReal.coe_add,
    ← EReal.coe_add, ← h]
  exact congrArg _ (pool_law_real x w b s two k1)

end Cert.Pool
-- ==== Proof.PoolRef.lean ====
/-
  The reference program's result, entry by entry, is the common function — on real data.

  The reference forms x/64 − 2 at every time step, sums that over the 2048 time steps from zero, contracts the
  32 × 1152 sums with the weight rows, adds 2048·b, and divides by the sample's length.  Read at (sample p, class q)
  through the generated one-operation-at-a-time reads, its numerator is the "shift first" side of the pooling law
  and the common function's numerator is the "pool first" side; the division by 64 is the product with 1/64; the
  denominators are the same conversion of the same integer.  The law needs real numbers, so the three float arrays
  are taken as coercions of real arrays.
-/
import proofs.«124967_j89833535963819_2_alg».proof.Proof.Gen.ReferenceIdeal.Read
import Idealize.ShloMosaic.PureOps.Ideal.Laws
import Idealize.ShloMosaic.Lib.ValueIdx
import proofs.«124967_j89833535963819_2_alg».proof.Proof.PoolSpec
import proofs.«124967_j89833535963819_2_alg».proof.Proof.PoolLaw

noncomputable section

open scoped BigOperators

namespace Cert.ReferenceIdeal.RefValue

open Cert.ReferenceIdeal Cert.ReferenceIdeal.Gen Cert.ReferenceIdeal.Read Idealize.ShloMosaic Idealize.ShloMosaic.ValueIdx

/-- The composed index maps of the reads, in coordinates. -/
theorem ix_x (p : Fin 32) (q : Fin 29) (k : Fin 1152) (t : Fin 2048) :
    idx_main_v4 (lidx_main_v5 (ix2 p q) k) t = ix3 p t k :=
  funext fun a => Fin.ext (by match a with | ⟨0, _⟩ => rfl | ⟨1, _⟩ => rfl | ⟨2, _⟩ => rfl)
theorem ix_w (p : Fin 32) (q : Fin 29) (k : Fin 1152) : ridx_main_v5 (ix2 p q) k = ix2 q k :=
  funext fun a => Fin.ext (by match a with | ⟨0, _⟩ => rfl | ⟨1, _⟩ => rfl)
theorem ix_b (p : Fin 32) (q : Fin 29) : idx_main_v8 (idx_main_v9 (ix2 p q)) = ix1 q :=
  funext fun a => Fin.ext (by match a with | ⟨0, _⟩ => rfl)
theorem ix_l (p : Fin 32) (q : Fin 29) : idx_main_v12 (idx_main_v13 (ix2 p q)) = ix1 p :=
  funext fun a => Fin.ext (by match a with | ⟨0, _⟩ => rfl)

/-- The reference's result at (p, q), for real-valued x, W and b. -/
theorem ref_entry (x : S32x2048x1152.Idx → ℝ) (L : S32.Idx → BitVec 32) (w : S29x1152.Idx → ℝ) (b : S29.Idx → ℝ)
    (p : Fin 32) (q : Fin 29) :
    val_main_v14 (F := Ideal) (fun i => (x i : EReal)) L (fun i => (w i : EReal)) (fun i => (b i : EReal)) (ix2 p q)
      = Cert.Pool.G (fun i => (x i : EReal)) L (fun i => (w i : EReal)) (fun i => (b i : EReal)) (ix2 p q) := by
  rw [val_main_v14_apply, val_main_v10_apply, val_main_v13_apply, val_main_v12_apply, val_main_v11_apply,
    val_main_v5_apply, val_main_v9_apply, val_main_v8_apply, val_main_v7_apply, val_main_v6_apply, val_main_cst_2_apply]
  simp only [val_main_v4_apply, val_main_v3_apply, val_main_v1_apply, val_main_v0_apply, val_main_v2_apply,
    val_main_cst_apply, val_main_cst_0_apply, val_main_cst_1_apply, ix_x, ix_w, ix_b, ix_l]
  rw [Cert.Pool.G_apply]
  refine congrArg (Ideal.div · (FloatOps.sitofp (F := Ideal) .f32 (L (ix1 p)))) ?_
  unfold Cert.Pool.num
  simp only [Ideal.ofBits_def, Ideal.hostDivf_def, Ideal.subf_def, Ideal.addf_def, Ideal.mulf_def, Cert.Pool.lit_64,
    Cert.Pool.lit_2, Cert.Pool.lit_2048, Cert.Pool.lit_4096, Cert.Pool.lit_inv64, Ideal.ofBits_zero_f32,
    Ideal.div_coe (by norm_num : (64 : ℝ) ≠ 0)]
  exact (Cert.Pool.pool_law (fun t k => x (ix3 p t k)) (fun k => w (ix2 q k)) (b (ix1 q)) (1 / 64) 2 2048 4096
    (by rw [Fintype.card_fin]; norm_num)).symm

/-- The reference's result array is the common function of real-valued arguments. -/
theorem ref_eq (x : S32x2048x1152.Idx → ℝ) (L : S32.Idx → BitVec 32) (w : S29x1152.Idx → ℝ) (b : S29.Idx → ℝ) :
    val_main_v14 (F := Ideal) (fun i => (x i : EReal)) L (fun i => (w i : EReal)) (fun i => (b i : EReal))
      = Cert.Pool.G (fun i => (x i : EReal)) L (fun i => (w i : EReal)) (fun i => (b i : EReal)) := by
  funext j
  obtain ⟨p, q, rfl⟩ : ∃ (p : Fin 32) (q : Fin 29), j = ix2 p q := ⟨j 0, j 1, eq_ix2 j⟩
  exact ref_entry x L w b p q

end Cert.ReferenceIdeal.RefValue

end
-- ==== Proof.LibFiniteArrays.lean ====
/-
  Arrays all of whose entries are finite.  A program states "every entry of `x` is finite" as: the absolute
  value of every entry is below plus infinity, all these comparisons reduced by "and" into one bit that is 1.
  On the extended reals, `|x| < +∞` excludes both infinities, so such an array is the entrywise coercion of an
  array of real numbers.
-/
import Idealize.ShloMosaic.Lib.ReduceAll
import Idealize.ShloMosaic.Lib.ValueIdx
import Idealize.ShloMosaic.PureOps.Ideal

noncomputable section

namespace Cert.FiniteArrays

open Idealize.ShloMosaic

/-- The scalar shape has one index. -/
instance : Subsingleton (⟨0, ![]⟩ : Shape).Idx := ⟨fun a b => funext fun d => d.elim0⟩

/-- The pattern of plus infinity denotes the top of the extended reals. -/
theorem pos_inf : Ideal.ofBits .f32 0x7F800000#32 = (⊤ : EReal) := by
  simp [Ideal.ofBits, Ideal.ieee]

/-- An extended real whose absolute value compares below plus infinity is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (⊤ : EReal) = 1#1 := by rw [← pos_inf]; exact h
  induction x using EReal.rec with
  | bot => simp [Ideal.cmp] at h'
  | coe r => exact ⟨r, rfl⟩
  | top => simp [Ideal.cmp] at h'

/-- An array whose finiteness test — every `|x i| < +∞`, reduced by "and" from 1 into one bit — answers 1 is the
    entrywise coercion of a real array. -/
theorem exists_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr hu ValueIdx.ix0 = 1#1) :
    ∃ f : s.Idx → ℝ, x = fun i => ((f i : ℝ) : EReal) := by
  have h : ∀ i, ∃ r : ℝ, x i = (r : EReal) := fun i =>
    real_of_abs_lt_top (x i) (Host.reduce_andi_all _ _ hr hu _ e i)
  choose f hf using h
  exact ⟨f, funext hf⟩

end Cert.FiniteArrays

end
-- ==== Proof.PoolFinite.lean ====
/-
  The precondition, opened: every entry of x, W and b is a real number.

  The precondition is one bit: the "and" of three tests, each "every |entry| is below +∞" reduced over a whole array.
  The bit being 1 gives each test, each test gives every entry of its array a real value.
-/
import proofs.«124967_j89833535963819_2_alg».proof.Pre_finite_inputs
import Idealize.ShloMosaic.Lib.Affine
import Idealize.ShloMosaic.Lib.ReduceAll
import Idealize.ShloMosaic.Lib.ValueIdx
import Idealize.ShloMosaic.PureOps.Ideal
import proofs.«124967_j89833535963819_2_alg».proof.Proof.LibFiniteArrays

noncomputable section

namespace Cert.Pool.Finite

open Idealize.ShloMosaic

/-- Under the precondition the three float arguments are coercions of real arrays. -/
theorem reals [Cert.Pre_finite_inputs.Facts]
    (x : FVec Ideal Cert.Pre_finite_inputs.S32x2048x1152 .f32) (l : IVec Cert.Pre_finite_inputs.S32 32)
    (w : FVec Ideal Cert.Pre_finite_inputs.S29x1152 .f32) (b : FVec Ideal Cert.Pre_finite_inputs.S29 .f32)
    (h : Cert.Pre_finite_inputs.fn (F := Ideal) x l w b = fun _ => 1#1) :
    (∃ f : Cert.Pre_finite_inputs.S32x2048x1152.Idx → ℝ, x = fun i => ((f i : ℝ) : EReal))
      ∧ (∃ g : Cert.Pre_finite_inputs.S29x1152.Idx → ℝ, w = fun i => ((g i : ℝ) : EReal))
      ∧ (∃ d : Cert.Pre_finite_inputs.S29.Idx → ℝ, b = fun i => ((d i : ℝ) : EReal)) := by
  have h0 := congrFun h ValueIdx.ix0
  dsimp only [Cert.Pre_finite_inputs.fn] at h0
  obtain ⟨hxw, hb⟩ := IntOp.andi_eq_one.mp h0
  obtain ⟨hx, hw⟩ := IntOp.andi_eq_one.mp hxw
  exact ⟨Cert.FiniteArrays.exists_real x _ _ _ hx, Cert.FiniteArrays.exists_real w _ _ _ hw,
    Cert.FiniteArrays.exists_real b _ _ _ hb⟩

end Cert.Pool.Finite

end
-- ==== Proof.lean ====
/-
  A temporal sum-pool followed by a 1 × 1 convolution and a length normalisation, against its plain reference.

  Inputs: x (32 samples × 2048 time steps × 1152 channels), one 32-bit length per sample, weights W (29 classes ×
  1152 channels) and a bias b (29).  The reference forms y = x/64 − 2, sums y over time, contracts the 32 × 1152 sums
  with W, adds 2048·b and divides row p by float(length p).  The kernel uses linearity: it sums x over time first —
  a 16 × 1152 running total carried over eight time tiles of 256 steps, per block of 16 samples —, and at the last
  tile scales the total by 1/64, contracts it with Wᵀ, adds the precomputed offset 2048·b − 4096·Σ_c W[·,c]
  and divides by the lengths.

  Over the extended reals, with every float operation exact:
  * the running total after the eight tiles is the sum over all 2048 time steps (a regrouping of a finite sum:
    nothing is cancelled, so no finiteness is needed), and the kernel's result array is one function G of the four
    arguments, entry by entry (Proof/PoolRun.lean over PoolBody, PoolPayload, PoolEntry, PoolBlocks);
  * the reference's result is the same G when x, W and b hold real numbers (Proof/PoolRef.lean): the law
    Σ_c ((Σ_t x)/64)·W + (2048·b − 4096·Σ_c W) = Σ_c (Σ_t (x/64 − 2))·W + 2048·b (Proof/PoolLaw.lean) uses
    distributivity and a cancellation, which fail at infinities; the precondition supplies the real numbers
    (Proof/PoolFinite.lean).  The two divisions by float(length) divide equal numerators by the same number, so
    nothing is asked of the lengths.
  The three frames are the generated frame runs; the idealization rewrote nothing, so `preserves` is `True`.
-/
import proofs.«124967_j89833535963819_2_alg».proof.Defs
import proofs.«124967_j89833535963819_2_alg».proof.Proof.Gen.Kernel
import proofs.«124967_j89833535963819_2_alg».proof.Proof.Gen.Kernel.Skeleton
import proofs.«124967_j89833535963819_2_alg».proof.Proof.Gen.Kernel.Launch
import proofs.«124967_j89833535963819_2_alg».proof.Proof.Gen.Kernel.Points
import proofs.«124967_j89833535963819_2_alg».proof.Proof.Gen.Kernel.Frame
import proofs.«124967_j89833535963819_2_alg».proof.Proof.Gen.KernelIdeal
import proofs.«124967_j89833535963819_2_alg».proof.Proof.Gen.KernelIdeal.Skeleton
import proofs.«124967_j89833535963819_2_alg».proof.Proof.Gen.KernelIdeal.Launch
import proofs.«124967_j89833535963819_2_alg».proof.Proof.Gen.KernelIdeal.Points
import proofs.«124967_j89833535963819_2_alg».proof.Proof.Gen.KernelIdeal.Frame
import proofs.«124967_j89833535963819_2_alg».proof.Proof.Gen.ReferenceIdeal
import proofs.«124967_j89833535963819_2_alg».proof.Proof.Gen.Pre_finite_inputs
import proofs.«124967_j89833535963819_2_alg».proof.Proof.Gen.KernelIdeal.Value
import proofs.«124967_j89833535963819_2_alg».proof.Proof.Gen.ReferenceIdeal.Run
import proofs.«124967_j89833535963819_2_alg».proof.Proof.Gen.ReferenceIdeal.Read
import proofs.«124967_j89833535963819_2_alg».proof.Proof.PoolRun
import proofs.«124967_j89833535963819_2_alg».proof.Proof.PoolRef
import proofs.«124967_j89833535963819_2_alg».proof.Proof.PoolFinite
import Idealize.ShloMosaic.Adequacy
import Idealize.ShloMosaic.Init

noncomputable section

namespace Cert.Proof

open Idealize.ShloMosaic Idealize.SL.Sem

namespace PoolClaims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common function G of the arguments: the kernel for any contents, the reference once
    the precondition has made x, W and b real-valued. -/
theorem algebraic : Cert.algebraic_KernelIdeal_ReferenceIdeal := by
  intro m ρ m' ρ' hpre hagree
  refine ⟨fun c => Cert.Pool.G (Cert.KernelIdeal.Entry.argX m c) (Cert.KernelIdeal.Entry.argL m c)
    (Cert.KernelIdeal.Entry.argW m c) (Cert.KernelIdeal.Entry.argB m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2]
  obtain ⟨⟨f, hf⟩, ⟨g, hg⟩, ⟨d, hd⟩⟩ := Cert.Pool.Finite.reals _ _ _ _ (hpre c)
  show Cert.ReferenceIdeal.Read.val_main_v14 (F := Ideal) (Cert.KernelIdeal.Entry.argX m c) (Cert.KernelIdeal.Entry.argL m c)
      (Cert.KernelIdeal.Entry.argW m c) (Cert.KernelIdeal.Entry.argB m c)
    = Cert.Pool.G (Cert.KernelIdeal.Entry.argX m c) (Cert.KernelIdeal.Entry.argL m c)
      (Cert.KernelIdeal.Entry.argW m c) (Cert.KernelIdeal.Entry.argB m c)
  have ex : Cert.KernelIdeal.Entry.argX m c = fun i => ((f i : ℝ) : EReal) := hf
  have ew : Cert.KernelIdeal.Entry.argW m c = fun i => ((g i : ℝ) : EReal) := hg
  have eb : Cert.KernelIdeal.Entry.argB m c = fun i => ((d i : ℝ) : EReal) := hd
  rw [ex, ew, eb]
  exact Cert.ReferenceIdeal.RefValue.ref_eq f _ g d

end PoolClaims

theorem claim : Cert.Claim :=
  ⟨Cert.Kernel.Gen.facts, Cert.KernelIdeal.Gen.facts, Cert.ReferenceIdeal.Gen.facts, Cert.Pre_finite_inputs.Gen.facts,
    PoolClaims.frame_k, PoolClaims.frame_ki, PoolClaims.frame_ri, PoolClaims.preserves, PoolClaims.algebraic⟩

end Cert.Proof

end
